-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S500000x128 : Shape := ⟨2, ![500000, 128]⟩
abbrev S500000x1 : Shape := ⟨2, ![500000, 1]⟩
abbrev S32768 : Shape := ⟨1, ![32768]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S500000x1 : S_.BroadcastsInDim S500000x1 (![] : Fin 0 → Fin S500000x1.rank)
  reducesTo_S500000x1_S_d0_1 : S500000x1.ReducesTo [0, 1] S_

variable [Facts]

def fn {F : FTy → Type} [FloatOps F] (main_arg0 : FVec F S4096x128 .f32) (main_arg1 : FVec F S500000x128 .f32) (main_arg2 : FVec F S500000x1 .f32) (main_arg3 : IVec S32768 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x1 .f32 := Host.absf main_arg2
  let main_cst_2 : FVec F S_ .f32 := constant S_ .f32 0x7F800000#32
  let main_v10 : FVec F S500000x1 .f32 := broadcastInDim S500000x1 ![] bcast_S_S500000x1 main_cst_2
  let main_v11 : IVec S500000x1 1 := cmpf .olt main_v9 main_v10
  let main_c_3 : IVec S_ 1 := constantI S_ 1 1#1
  let main_v12 : IVec S_ 1 := (fun x v => Host.reduce IntOp.andi x v reducesTo_S500000x1_S_d0_1 h_S_) main_v11 main_c_3
  let main_v13 : IVec S_ 1 := andi main_v8 main_v12
  main_v13
-- ==== Kernel.lean ====
abbrev S4096x128 : Shape := ⟨2, ![4096, 128]⟩
abbrev S500000x128 : Shape := ⟨2, ![500000, 128]⟩
abbrev S500000x1 : Shape := ⟨2, ![500000, 1]⟩
abbrev S32768 : Shape := ⟨1, ![32768]⟩
abbrev S_ : Shape := ⟨0, ![]⟩
abbrev S32768x1 : Shape := ⟨2, ![32768, 1]⟩
abbrev S32768x128 : Shape := ⟨2, ![32768, 128]⟩
abbrev S500000 : Shape := ⟨1, ![500000]⟩
abbrev S1x32768 : Shape := ⟨2, ![1, 32768]⟩
abbrev S4096x32768 : Shape := ⟨2, ![4096, 32768]⟩
abbrev S1024x128 : Shape := ⟨2, ![1024, 128]⟩
abbrev S2048x128 : Shape := ⟨2, ![2048, 128]⟩
abbrev S1x2048 : Shape := ⟨2, ![1, 2048]⟩
abbrev S1024x2048 : Shape := ⟨2, ![1024, 2048]⟩

abbrev nBuf : Space → Nat
  | .hbm => 27
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S500000x128, .f32⟩
  | .hbm, ⟨2, _⟩ => ⟨S500000x1, .f32⟩
  | .hbm, ⟨3, _⟩ => ⟨S32768, .i32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S32768x128, .f32⟩
  | .hbm, ⟨13, _⟩ => ⟨S32768x128, .bf16⟩
  | .hbm, ⟨14, _⟩ => ⟨S500000, .f32⟩
  | .hbm, ⟨15, _⟩ => ⟨S_, .i32⟩
  | .hbm, ⟨16, _⟩ => ⟨S32768, .i32⟩
  | .hbm, ⟨17, _⟩ => ⟨S32768, .i1⟩
  | .hbm, ⟨18, _⟩ => ⟨S_, .i32⟩
  | .hbm, ⟨19, _⟩ => ⟨S32768, .i32⟩
  | .hbm, ⟨20, _⟩ => ⟨S32768, .i32⟩
  | .hbm, ⟨21, _⟩ => ⟨S32768, .i32⟩
  | .hbm, ⟨22, _⟩ => ⟨S32768x1, .i32⟩
  | .hbm, ⟨23, _⟩ => ⟨S32768, .f32⟩
  | .hbm, ⟨24, _⟩ => ⟨S1x32768, .f32⟩
  | .hbm, ⟨25, _⟩ => ⟨S4096x128, .bf16⟩
  | .hbm, ⟨26, _⟩ => ⟨S4096x32768, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c_1 : Ref sig .tc := ⟨.hbm, 15, rfl⟩
abbrev main_call0_v9 : Ref sig .tc := ⟨.hbm, 16, rfl⟩
abbrev main_call0_v10 : Ref sig .tc := ⟨.hbm, 17, rfl⟩
abbrev main_call0_c_2 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_v0_0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bitsLt_bf16_f32 : FTy.bits .bf16 < FTy.bits .f32
  shapeCasts_S500000x1_S500000 : S500000x1.ShapeCasts S500000
  shapeCasts_S32768_S1x32768 : S32768.ShapeCasts S1x32768
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  gather_S500000x128_S32768x1_S32768x128_1_0_n_n_0_1_1128_wf : GatherDims.WF S500000x128 S32768x1 S32768x128 [1] [0] [] [0] [] 1 ![1, 128]
  gather_S500000_S32768x1_S32768_n_0_n_n_0_1_1_wf : GatherDims.WF S500000 S32768x1 S32768 [] [0] [] [0] [] 1 ![1]
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .bf16 = 32 ∨ (Rect.block (s := S4096x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S32768x128.size a
  hwx0_1 : ∀ i : grid0.Coords, EltTy.bits .bf16 = 32 ∨ (Rect.block (s := S32768x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x32768.size a
  hwx0_2 : ∀ i : grid0.Coords, EltTy.bits .f32 = 32 ∨ (Rect.block (s := S1x32768) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S4096x32768.size a
  hwx0_3 : ∀ i : grid0.Coords, EltTy.bits .f32 = 32 ∨ (Rect.block (s := S4096x32768) S1024x2048.size (cc0_transform_3 i) (hinb0_3 i)).WholeWords (EltTy.packing .f32)

variable [Facts₀]

def gather_S500000x128_S32768x1_S32768x128_1_0_n_n_0_1_1128 : GatherDims S500000x128 S32768x1 S32768x128 where
  offsetDims := [1]
  collapsedSliceDims := [0]
  operandBatchingDims := []
  startIndicesBatchingDims := []
  startIndexMap := [0]
  indexVectorDim := 1
  sliceSizes := ![1, 128]
  wf := gather_S500000x128_S32768x1_S32768x128_1_0_n_n_0_1_1128_wf
def gather_S500000_S32768x1_S32768_n_0_n_n_0_1_1 : GatherDims S500000 S32768x1 S32768 where
  offsetDims := []
  collapsedSliceDims := [0]
  operandBatchingDims := []
  startIndicesBatchingDims := []
  startIndexMap := [0]
  indexVectorDim := 1
  sliceSizes := ![1]
  wf := gather_S500000_S32768x1_S32768_n_0_n_n_0_1_1_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_call0_v17) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S500000x128 : Shape := ⟨2, ![500000, 128]⟩
abbrev S500000x1 : Shape := ⟨2, ![500000, 1]⟩
abbrev S32768 : Shape := ⟨1, ![32768]⟩
abbrev S_ : Shape := ⟨0, ![]⟩
abbrev S32768x1 : Shape := ⟨2, ![32768, 1]⟩
abbrev S32768x128 : Shape := ⟨2, ![32768, 128]⟩
abbrev S500000 : Shape := ⟨1, ![500000]⟩
abbrev S4096x32768 : Shape := ⟨2, ![4096, 32768]⟩
abbrev S1x32768 : Shape := ⟨2, ![1, 32768]⟩

abbrev nBuf : Space → Nat
  | .hbm => 27
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S500000x128, .f32⟩
  | .hbm, ⟨2, _⟩ => ⟨S500000x1, .f32⟩
  | .hbm, ⟨3, _⟩ => ⟨S32768, .i32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S32768x128, .f32⟩
  | .hbm, ⟨13, _⟩ => ⟨S500000, .f32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768x1, .i32⟩
  | .hbm, ⟨22, _⟩ => ⟨S32768, .f32⟩
  | .hbm, ⟨23, _⟩ => ⟨S4096x32768, .f32⟩
  | .hbm, ⟨24, _⟩ => ⟨S1x32768, .f32⟩
  | .hbm, ⟨25, _⟩ => ⟨S4096x32768, .f32⟩
  | .hbm, ⟨26, _⟩ => ⟨S4096x32768, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  shapeCasts_S500000x1_S500000 : S500000x1.ShapeCasts S500000
  bcast_S32768_S1x32768_1 : S32768.BroadcastsInDim S1x32768 (![1] : Fin 1 → Fin S1x32768.rank)
  bcast_S1x32768_S4096x32768_0_1 : S1x32768.BroadcastsInDim S4096x32768 (![0, 1] : Fin 2 → Fin S4096x32768.rank)
  gather_S500000x128_S32768x1_S32768x128_1_0_n_n_0_1_1128_wf : GatherDims.WF S500000x128 S32768x1 S32768x128 [1] [0] [] [0] [] 1 ![1, 128]
  gather_S500000_S32768x1_S32768_n_0_n_n_0_1_1_wf : GatherDims.WF S500000 S32768x1 S32768 [] [0] [] [0] [] 1 ![1]
  dot_S4096x128_S32768x128_S4096x32768_1_1_0_0_n_n_wf : DotDims.WF S4096x128 S32768x128 S4096x32768 [1] [1] [0] [0] [] []

variable [Facts₀]

def gather_S500000x128_S32768x1_S32768x128_1_0_n_n_0_1_1128 : GatherDims S500000x128 S32768x1 S32768x128 where
  offsetDims := [1]
  collapsedSliceDims := [0]
  operandBatchingDims := []
  startIndicesBatchingDims := []
  startIndexMap := [0]
  indexVectorDim := 1
  sliceSizes := ![1, 128]
  wf := gather_S500000x128_S32768x1_S32768x128_1_0_n_n_0_1_1128_wf
def gather_S500000_S32768x1_S32768_n_0_n_n_0_1_1 : GatherDims S500000 S32768x1 S32768 where
  offsetDims := []
  collapsedSliceDims := [0]
  operandBatchingDims := []
  startIndicesBatchingDims := []
  startIndexMap := [0]
  indexVectorDim := 1
  sliceSizes := ![1]
  wf := gather_S500000_S32768x1_S32768_n_0_n_n_0_1_1_wf
def dot_S4096x128_S32768x128_S4096x32768_1_1_0_0_n_n : DotDims S4096x128 S32768x128 S4096x32768 where
  lhsContracting := [1]
  rhsContracting := [1]
  lhsNonContracting := [0]
  rhsNonContracting := [0]
  lhsBatch := []
  rhsBatch := []
  wf := dot_S4096x128_S32768x128_S4096x32768_1_1_0_0_n_n_wf

class Facts : Prop extends Facts₀ where

variable [Facts]
-- ==== Proof.Spec.lean ====
/-
  The function both programs compute, on extended reals.

  For a row `n` of the activations `x : [4096, 128]`, a sampled class `s` whose embedding is row `s` of
  `w : [32768, 128]` and whose bias is `b s`, the logit is the inner product of the two rows plus the bias:

      logit n s = (Σ_{d < 128} x[n, d] · w[s, d]) + b[s].

  Nothing here is specific to either program: the arrays are plain functions of their indices.
-/
import Idealize.ShloMosaic.PureOps.Ideal
import Idealize.ShloMosaic.Lib.ValueIdx

noncomputable section

open scoped BigOperators

namespace Cert.SampledLogits

open Idealize.ShloMosaic Idealize.ShloMosaic.ValueIdx

/-- One logit from the coordinates of its row and of its sampled class. -/
def logitAt (x : (⟨2, ![4096, 128]⟩ : Shape).Idx → EReal) (w : (⟨2, ![32768, 128]⟩ : Shape).Idx → EReal)
    (b : (⟨1, ![32768]⟩ : Shape).Idx → EReal) (n : Fin 4096) (s : Fin 32768) : EReal :=
  (∑ d : Fin 128, x (ix2 n d) * w (ix2 s d)) + b (ix1 s)

/-- The whole `[4096, 32768]` array of logits. -/
def logits (x : (⟨2, ![4096, 128]⟩ : Shape).Idx → EReal) (w : (⟨2, ![32768, 128]⟩ : Shape).Idx → EReal)
    (b : (⟨1, ![32768]⟩ : Shape).Idx → EReal) : (⟨2, ![4096, 32768]⟩ : Shape).Idx → EReal :=
  fun i => logitAt x w b (i 0) (i 1)

/-- At an index given by its coordinates the array is the logit of those coordinates. -/
theorem logits_ix2 (x : (⟨2, ![4096, 128]⟩ : Shape).Idx → EReal) (w : (⟨2, ![32768, 128]⟩ : Shape).Idx → EReal)
    (b : (⟨1, ![32768]⟩ : Shape).Idx → EReal) (n : Fin 4096) (s : Fin 32768) :
    logits x w b (ix2 n s) = logitAt x w b n s := rfl

/-- The array depends on its three arguments only through their values. -/
theorem logits_congr {x x' : (⟨2, ![4096, 128]⟩ : Shape).Idx → EReal} {w w' : (⟨2, ![32768, 128]⟩ : Shape).Idx → EReal}
    {b b' : (⟨1, ![32768]⟩ : Shape).Idx → EReal} (hx : x = x') (hw : w = w') (hb : b = b') :
    logits x w b = logits x' w' b' := by
  subst hx hw hb; rfl

end Cert.SampledLogits

end
-- ==== Proof.RefLogits.lean ====
/-
  The reference, read one operation at a time, is the logit function.

  Its last operation adds two arrays.  The first is a `dot_general` contracting the second axis of the activations
  with the second axis of the gathered embeddings, so its entry at `(n, s)` is `Σ_d x[n, d] · w[s, d]`.  The second is
  the gathered bias vector made a row `[1, 32768]` and then repeated down the 4096 rows, so its entry at `(n, s)` is
  `b[s]`.  The two gathers are kept as they are: whatever rows they pick, they enter only as the arrays `w` and `b`.
-/
import proofs.«125937_j69965017252067_2_alg».proof.Proof.Gen.ReferenceIdeal.Read
import proofs.«125937_j69965017252067_2_alg».proof.Proof.Spec

noncomputable section

open scoped BigOperators

namespace Cert.ReferenceIdeal.RefLogits

open Cert.ReferenceIdeal Cert.ReferenceIdeal.Read Idealize.ShloMosaic Idealize.ShloMosaic.ValueIdx
open Cert.SampledLogits

/-- The left operand's index of the contraction at `(n, s)`, term `d`, is `(n, d)`. -/
theorem lidx_ix2 (n : Fin 4096) (s : Fin 32768) (d : Fin 128) : lidx_main_v15 (ix2 n s) d = ix2 n d :=
  funext fun a => Fin.ext (by match a with | ⟨0, _⟩ => rfl | ⟨1, _⟩ => rfl)

/-- The right operand's index of the contraction at `(n, s)`, term `d`, is `(s, d)`. -/
theorem ridx_ix2 (n : Fin 4096) (s : Fin 32768) (d : Fin 128) : ridx_main_v15 (ix2 n s) d = ix2 s d :=
  funext fun a => Fin.ext (by match a with | ⟨0, _⟩ => rfl | ⟨1, _⟩ => rfl)

/-- The bias row repeated down the rows, then the row made from the vector: entry `(n, s)` reads the vector at `s`. -/
theorem bias_ix2 (n : Fin 4096) (s : Fin 32768) : idx_main_v16 (idx_main_v17 (ix2 n s)) = ix1 s :=
  funext fun a => Fin.ext (by match a with | ⟨0, _⟩ => rfl)

/-- The reference's result array, as a function of the activations, the embedding table, the bias table and the
    sampled ids, is the logit array of the activations, the gathered embeddings and the gathered biases. -/
theorem result_eq (x0 : (⟨S4096x128, .f32⟩ : BufTy).Contents (Elt Ideal)) (x1 : (⟨S500000x128, .f32⟩ : BufTy).Contents (Elt Ideal))
    (x2 : (⟨S500000x1, .f32⟩ : BufTy).Contents (Elt Ideal)) (x3 : (⟨S32768, .i32⟩ : BufTy).Contents (Elt Ideal)) :
    val_main_v18 (F := Ideal) x0 x1 x2 x3 = logits x0 (val_main_v6 (F := Ideal) x1 x3) (val_main_v14 (F := Ideal) x2 x3) := by
  funext i
  obtain ⟨n, s, rfl⟩ : ∃ (n : Fin 4096) (s : Fin 32768), i = ix2 n s := ⟨i 0, i 1, eq_ix2 i⟩
  rw [val_main_v18_apply, val_main_v15_apply, val_main_v17_apply, val_main_v16_apply, bias_ix2, logits_ix2]
  simp only [lidx_ix2, ridx_ix2]
  rfl

end Cert.ReferenceIdeal.RefLogits

end
-- ==== Proof.BodyLogits.lean ====
/-
  What the kernel body stores, read at one entry of its output block.

  At a grid point the body holds a block `xb : [1024, 128]` of activations, a block `wb : [2048, 128]` of gathered
  embeddings and a block `bb : [1, 2048]` of gathered biases.  It multiplies `xb` by the transpose of `wb` on the
  matrix unit into a zero accumulator, repeats the bias row down the 1024 rows, and adds.  On extended reals the
  product into zero is the plain sum over the contracted axis, so the stored block at `(p, q)` is

      (Σ_{d < 128} xb[p, d] · wb[q, d]) + bb[0, q].

  The product contracts one axis of extent 128, so its sum over the contraction's index set is re-indexed by that
  axis's coordinate; the operands' indices at output entry `(p, q)` and contracted coordinate `d` are then `(p, d)`
  and `(q, d)`.
-/
import proofs.«125937_j69965017252067_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The operand indices of the block product -/

/-- The left operand's row is the output's row. -/
theorem lhs_row (j : S1024x2048.Idx) (k : dot_S1024x128_S2048x128_S1024x2048_1_1_0_0_n_n.contr.Idx) : (dot_S1024x128_S2048x128_S1024x2048_1_1_0_0_n_n.lhsIdx j k 0).val = (j 0).val := by
  unfold DotDims.lhsIdx
  rw [dif_neg (show ¬(0 : Fin S1024x128.rank) ∈ dot_S1024x128_S2048x128_S1024x2048_1_1_0_0_n_n.lhsBatch by decide),
    dif_pos (show (0 : Fin S1024x128.rank) ∈ dot_S1024x128_S2048x128_S1024x2048_1_1_0_0_n_n.lhsNonContracting by decide)]
  rfl

/-- The left operand's column is the contracted coordinate. -/
theorem lhs_col (j : S1024x2048.Idx) (k : dot_S1024x128_S2048x128_S1024x2048_1_1_0_0_n_n.contr.Idx) : (dot_S1024x128_S2048x128_S1024x2048_1_1_0_0_n_n.lhsIdx j k 1).val = (k ⟨0, by decide⟩).val :=
  dot_S1024x128_S2048x128_S1024x2048_1_1_0_0_n_n.lhsIdx_val_of_single rfl j k

/-- The right operand's row is the output's column: the product is with the transpose. -/
theorem rhs_row (j : S1024x2048.Idx) (k : dot_S1024x128_S2048x128_S1024x2048_1_1_0_0_n_n.contr.Idx) : (dot_S1024x128_S2048x128_S1024x2048_1_1_0_0_n_n.rhsIdx j k 0).val = (j 1).val := by
  unfold DotDims.rhsIdx
  rw [dif_neg (show ¬(0 : Fin S2048x128.rank) ∈ dot_S1024x128_S2048x128_S1024x2048_1_1_0_0_n_n.rhsBatch by decide),
    dif_pos (show (0 : Fin S2048x128.rank) ∈ dot_S1024x128_S2048x128_S1024x2048_1_1_0_0_n_n.rhsNonContracting by decide)]
  rfl

/-- The right operand's column is the contracted coordinate. -/
theorem rhs_col (j : S1024x2048.Idx) (k : dot_S1024x128_S2048x128_S1024x2048_1_1_0_0_n_n.contr.Idx) : (dot_S1024x128_S2048x128_S1024x2048_1_1_0_0_n_n.rhsIdx j k 1).val = (k ⟨0, by decide⟩).val :=
  dot_S1024x128_S2048x128_S1024x2048_1_1_0_0_n_n.rhsIdx_val_of_single rfl j k

/-! ## The block product and the stored block at an entry -/

/-- The block product into the zero accumulator, at `(p, q)`: the inner product of row `p` of the activations block
    with row `q` of the embeddings block. -/
theorem product_ix2 (xb : FVec Ideal S1024x128 .bf16) (wb : FVec Ideal S2048x128 .bf16) (p : Fin 1024) (q : Fin 2048) :
    matmul dot_S1024x128_S2048x128_S1024x2048_1_1_0_0_n_n none xb wb (constant (F := Ideal) S1024x2048 .f32 0x00000000#32) (ix2 p q)
      = ∑ d : Fin 128, xb (ix2 p d) * wb (ix2 q d) := by
  refine (Ideal.matmul_constant_zero_apply dot_S1024x128_S2048x128_S1024x2048_1_1_0_0_n_n none xb wb (ix2 p q)).trans ?_
  rw [← Equiv.sum_comp (contrEquiv1 dot_S1024x128_S2048x128_S1024x2048_1_1_0_0_n_n 128 rfl rfl).symm]
  refine Finset.sum_congr rfl fun d _ => ?_
  have hd := contrEquiv1_symm_val dot_S1024x128_S2048x128_S1024x2048_1_1_0_0_n_n 128 rfl rfl d
  have el : dot_S1024x128_S2048x128_S1024x2048_1_1_0_0_n_n.lhsIdx (ix2 p q) ((contrEquiv1 dot_S1024x128_S2048x128_S1024x2048_1_1_0_0_n_n 128 rfl rfl).symm d) = ix2 p d :=
    funext fun a => Fin.ext (by
      match a with
      | ⟨0, _⟩ => exact lhs_row _ _
      | ⟨1, _⟩ => exact (lhs_col _ _).trans hd)
  have er : dot_S1024x128_S2048x128_S1024x2048_1_1_0_0_n_n.rhsIdx (ix2 p q) ((contrEquiv1 dot_S1024x128_S2048x128_S1024x2048_1_1_0_0_n_n 128 rfl rfl).symm d) = ix2 q d :=
    funext fun a => Fin.ext (by
      match a with
      | ⟨0, _⟩ => exact rhs_row _ _
      | ⟨1, _⟩ => exact (rhs_col _ _).trans hd)
  rw [el, er]

/-- The stored block at `(p, q)`: the inner product plus the bias of column `q`. -/
theorem stored_ix2 (xb : Vec Ideal S1024x128 .bf16) (wb : Vec Ideal S2048x128 .bf16) (bb : Vec Ideal S1x2048 .f32)
    (p : Fin 1024) (q : Fin 2048) :
    k0_pay1 (F := Ideal) xb wb bb (ix2 p q) = (∑ d : Fin 128, xb (ix2 p d) * wb (ix2 q d)) + bb (ix2 (0 : Fin 1) q) := by
  unfold k0_pay1
  rw [shapeCast_self, shapeCast_self, shapeCast_self]
  refine (addf_apply _ _ (ix2 p q)).trans ?_
  refine congrArg₂ (· + ·) (product_ix2 xb wb p q) ?_
  exact broadcastTo_1b_ab_apply bb broadcasts_S1x2048_S1024x2048 p q

end Cert.KernelIdeal.Body

end
-- ==== Proof.Entry.lean ====
/-
  What the kernel's launch finds in the three arrays it reads.

  Before the launch the program wraps negative sampled ids by the table height, gathers the sampled rows of the
  embedding table and of the flattened bias table, rounds the activations and the gathered embeddings to the
  narrower float format (the identity on extended reals) and lays the gathered biases out as one row.  Each of the
  three arrays the launch stages is therefore a fixed function of the program's arguments, stated here once.
-/
import proofs.«125937_j69965017252067_2_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]

/-- The sampled ids as the gathers take them: a negative id counted from the end of the table (the table height
    added), the others unchanged, laid out as a column. -/
def wrappedIds (ids : (⟨S32768, .i32⟩ : BufTy).Contents (Elt F)) : (⟨S32768x1, .i32⟩ : BufTy).Contents (Elt F) :=
  broadcastInDim S32768x1 ![0] bcast_S32768_S32768x1_0
    (select (cmpi .slt ids (broadcastInDim S32768 ![] bcast_S_S32768 (constantI S_ 32 0#32)))
      (addi ids (broadcastInDim S32768 ![] bcast_S_S32768 (constantI S_ 32 500000#32))) ids)

/-- The sampled rows of the embedding table. -/
def sampledRows (table : (⟨S500000x128, .f32⟩ : BufTy).Contents (Elt F)) (ids : (⟨S32768, .i32⟩ : BufTy).Contents (Elt F)) :
    (⟨S32768x128, .f32⟩ : BufTy).Contents (Elt F) :=
  Host.gather gather_S500000x128_S32768x1_S32768x128_1_0_n_n_0_1_1128 table (wrappedIds (F := F) ids)

/-- The sampled entries of the bias table, the table read as a flat vector. -/
def sampledBias (table : (⟨S500000x1, .f32⟩ : BufTy).Contents (Elt F)) (ids : (⟨S32768, .i32⟩ : BufTy).Contents (Elt F)) :
    (⟨S32768, .f32⟩ : BufTy).Contents (Elt F) :=
  Host.gather gather_S500000_S32768x1_S32768_n_0_n_n_0_1_1 (shapeCast _ table shapeCasts_S500000x1_S500000) (wrappedIds (F := F) ids)

variable (m : (ℓ : Loc nD τ sig) → Buf (Elt F) ℓ)

/-- The activations array the launch stages: the argument, rounded. -/
theorem staged_x (c : Dev nD) :
    V m c main_call0_v17 = truncf .bf16 (m ((c : Thread nD τ).loc main_arg0)) bitsLt_bf16_f32 := by
  dsimp only [V, hostOps0]
  after_results
  rfl

/-- The embeddings array the launch stages: the sampled rows, rounded. -/
theorem staged_w (c : Dev nD) :
    V m c main_call0_v7 = truncf .bf16 (sampledRows (F := F) (m ((c : Thread nD τ).loc main_arg1)) (m ((c : Thread nD τ).loc main_arg3))) bitsLt_bf16_f32 := by
  dsimp only [V, hostOps0]
  after_results
  rfl

/-- The bias array the launch stages: the sampled biases as one row. -/
theorem staged_b (c : Dev nD) :
    V m c main_call0_v16 = shapeCast _ (sampledBias (F := F) (m ((c : Thread nD τ).loc main_arg2)) (m ((c : Thread nD τ).loc main_arg3))) shapeCasts_S32768_S1x32768 := by
  dsimp only [V, hostOps0]
  after_results
  rfl

end Cert.KernelIdeal.Entry

end
-- ==== Proof.Blocks.lean ====
/-
  From the blocks the grid points write to the whole output array.

  The grid has 16 × 4 points.  Point `(j, i)` reads rows `1024·i …` of the activations, rows `2048·j …` of the
  gathered embeddings, columns `2048·j …` of the bias row, and writes the `1024 × 2048` block of the output whose
  corner is `(1024·i, 2048·j)`.  Entry `(p, q)` of what it writes is the inner product of activation row
  `1024·i + p` with embedding row `2048·j + q` plus bias `2048·j + q`: the logit at the output entry it lands on.
  The 64 blocks tile the output, so the array ends as the logit array of the three staged arrays; those are the
  arguments and the gathers of the arguments.
-/
import proofs.«125937_j69965017252067_2_alg».proof.Proof.Gen.KernelIdeal.Value
import proofs.«125937_j69965017252067_2_alg».proof.Proof.BodyLogits
import proofs.«125937_j69965017252067_2_alg».proof.Proof.Entry
import proofs.«125937_j69965017252067_2_alg».proof.Proof.Spec

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.SampledLogits

variable (m : (ℓ : Loc nD τ sig) → Buf (Elt Ideal) ℓ) (ρ : Dev nD → PrngReg)

/-- The body's accesses all start at the corner of their buffers. -/
theorem corner : (![0, 0] : Fin 2 → Nat) = fun _ => 0 := funext fun a => by fin_cases a <;> rfl

/-- The logit array of three staged arrays, the biases staged as a row. -/
def tiled (X : S4096x128.Idx → EReal) (W : S32768x128.Idx → EReal) (B : S1x32768.Idx → EReal) : S4096x32768.Idx → EReal :=
  logits X W (fun s => B (ix2 (0 : Fin 1) (s 0)))

/-- One entry of a point's block is the logit at the output entry it lands on, once the three input blocks are known
    to read the staged arrays at the matching rows and column. -/
theorem entry_eq (X : S4096x128.Idx → EReal) (W : S32768x128.Idx → EReal) (B : S1x32768.Idx → EReal)
    (xb : Vec Ideal S1024x128 .bf16) (wb : Vec Ideal S2048x128 .bf16) (bb : Vec Ideal S1x2048 .f32)
    (p : Fin 1024) (q : Fin 2048) (n : Fin 4096) (s : Fin 32768)
    (hx : ∀ d : Fin 128, xb (ix2 p d) = X (ix2 n d)) (hw : ∀ d : Fin 128, wb (ix2 q d) = W (ix2 s d))
    (hb : bb (ix2 (0 : Fin 1) q) = B (ix2 (0 : Fin 1) s)) :
    k0_pay1 (F := Ideal) xb wb bb (ix2 p q) = tiled X W B (ix2 n s) := by
  rw [Body.stored_ix2, hb]
  show _ = (∑ d : Fin 128, X (ix2 n d) * W (ix2 s d)) + B (ix2 (0 : Fin 1) s)
  exact congrArg (· + B (ix2 (0 : Fin 1) s)) (Finset.sum_congr rfl fun d _ => by rw [hx d, hw d])

/-- How the four windows move over the grid, decided once over its 64 points: the activations' block row is the
    output's block row, the embeddings' block row and the bias row's block column are the output's block column, and
    the remaining block indices are zero. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 15 :=
  (by decide +kernel : ∀ t : Fin grid0.N, _)

/-- Every block of the output is some point's. -/
theorem index_onto : ∀ (r : Fin 4) (k : Fin 16), ∃ t : Fin cfg0.N, win0_3.index t = ![r.val, k.val] :=
  (by decide +kernel : ∀ (r : Fin 4) (k : Fin 16), ∃ t : Fin grid0.N, win0_3.index t = ![r.val, k.val])

/-- What point `t` writes back is its block of the logit array of the staged arrays. -/
theorem flushed_eq (c : Dev nD) (t : Fin cfg0.N) :
    (dats m 0 c).flushed 3 t = ((cfg0.win 3).blk t).view.read (Elt Ideal)
      (tiled (V m c main_call0_v17) (V m c main_call0_v7) (V m c main_call0_v16)) := by
  rw [flushed3]
  unfold out0_3
  rw [View.canon_unit_zero corner]
  simp only [View.ld_unit_zero (S := S1024x128) corner, View.ld_unit_zero (S := S2048x128) corner, View.ld_unit_zero (S := S1x2048) corner]
  obtain ⟨e0, e1, e2, e3, e4, e5, e6, e7⟩ := index_facts t
  funext j
  show k0_pay1 (F := Ideal) (iblk m c 0 t) (iblk m c 1 t) (iblk m c 2 t) j
    = tiled (V m c main_call0_v17) (V m c main_call0_v7) (V m c main_call0_v16) (((cfg0.win 3).blk t).view.emb j)
  obtain ⟨p, q, rfl⟩ : ∃ (p : Fin 1024) (q : Fin 2048), j = ix2 p q := ⟨j 0, j 1, eq_ix2 j⟩
  have hn : win0_3.index t (0 : Fin 2) * 1024 + p.val < 4096 := by have := p.isLt; omega
  have hs : win0_3.index t (1 : Fin 2) * 2048 + q.val < 32768 := by have := q.isLt; omega
  have hemb : ((cfg0.win 3).blk t).view.emb (ix2 p q)
      = ix2 (⟨win0_3.index t (0 : Fin 2) * 1024 + p.val, hn⟩ : Fin 4096) (⟨win0_3.index t (1 : Fin 2) * 2048 + q.val, hs⟩ : Fin 32768) := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 2048 + 1 * q.val = win0_3.index t (1 : Fin 2) * 2048 + q.val; omega
  rw [hemb]
  refine entry_eq (V m c main_call0_v17) (V m c main_call0_v7) (V m c main_call0_v16)
    (iblk m c 0 t) (iblk m c 1 t) (iblk m c 2 t) p q ⟨_, hn⟩ ⟨_, hs⟩ (fun d => ?_) (fun d => ?_) ?_
  · show V m c main_call0_v17 (((cfg0.win 0).blk t).view.emb (ix2 p d)) = V m c main_call0_v17 _
    refine congrArg (V m c main_call0_v17) (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 128 + 1 * d.val = d.val; omega
  · show V m c main_call0_v7 (((cfg0.win 1).blk t).view.emb (ix2 q d)) = V m c main_call0_v7 _
    refine congrArg (V m c main_call0_v7) (funext fun a => Fin.ext ?_)
    match a with
    | ⟨0, _⟩ => show win0_1.index t (0 : Fin 2) * 2048 + 1 * q.val = win0_3.index t (1 : Fin 2) * 2048 + q.val; omega
    | ⟨1, _⟩ => show win0_1.index t (1 : Fin 2) * 128 + 1 * d.val = d.val; omega
  · show V m c main_call0_v16 (((cfg0.win 2).blk t).view.emb (ix2 (0 : Fin 1) q)) = V m c main_call0_v16 _
    refine congrArg (V m c main_call0_v16) (funext fun a => Fin.ext ?_)
    match a with
    | ⟨0, _⟩ => show win0_2.index t (0 : Fin 2) * 1 + 1 * 0 = 0; omega
    | ⟨1, _⟩ => show win0_2.index t (1 : Fin 2) * 2048 + 1 * q.val = win0_3.index t (1 : Fin 2) * 2048 + q.val; omega

/-- An index of the output is in point `t`'s block iff each coordinate is in the block's range on its axis. -/
theorem mem_block (t : Fin cfg0.N) (i : S4096x32768.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v0_0).slice (win0_3.rect t)).set ↔ _
  rw [View.set_slice_whole, Rect.mem_set_unit]
  exact Iff.rfl

/-- The blocks tile the output: entry `(n, s)` lies in the block of the point whose output block is
    `(n / 1024, s / 2048)`. -/
theorem covered (i : S4096x32768.Idx) :
    ∃ t : Fin cfg0.N, (cfg0.win 3).flush t = true ∧ i ∈ ((cfg0.win 3).blk t).view.set := by
  have hi0 : (i 0).val < 4096 := (i 0).isLt
  have hi1 : (i 1).val < 32768 := (i 1).isLt
  obtain ⟨t, ht⟩ := index_onto ⟨(i 0).val / 1024, by omega⟩ ⟨(i 1).val / 2048, by omega⟩
  have q0 : win0_3.index t (0 : Fin 2) = (i 0).val / 1024 := congrFun ht 0
  have q1 : win0_3.index t (1 : Fin 2) = (i 1).val / 2048 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

/-- The output array after the run, over the staged arrays. -/
theorem final_staged (c : Dev nD) : (dats m 0 c).arrAt 3 cfg0.N
    = tiled (V m c main_call0_v17) (V m c main_call0_v7) (V m c main_call0_v16) :=
  (dats m 0 c).arrAt_eq_of_cover 3 _ (fun t _ => flushed_eq m c t) covered

/-- The output array after the run, over the program's arguments: rounding is the identity on extended reals, and
    the bias row read at column `s` is the sampled bias `s`. -/
theorem final (c : Dev nD) : (dats m 0 c).arrAt 3 cfg0.N
    = logits (m ((c : Thread nD τ).loc main_arg0))
        (Entry.sampledRows (F := Ideal) (m ((c : Thread nD τ).loc main_arg1)) (m ((c : Thread nD τ).loc main_arg3)))
        (Entry.sampledBias (F := Ideal) (m ((c : Thread nD τ).loc main_arg2)) (m ((c : Thread nD τ).loc main_arg3))) := by
  refine (final_staged m c).trans (logits_congr ?_ ?_ ?_)
  · exact (Entry.staged_x m c).trans (funext fun i => truncf_apply _ _ i)
  · exact (Entry.staged_w m c).trans (funext fun i => truncf_apply _ _ i)
  · funext s
    show V m c main_call0_v16 (ix2 (0 : Fin 1) (s 0)) = _
    rw [Entry.staged_b]
    exact (shapeCast_a_1a_apply _ _ (0 : Fin 1) (s 0)).trans (congrArg _ (eq_ix1 s).symm)

/-- The kernel program's run: the result array ends as the logit array of the activations, the sampled embedding
    rows and the sampled biases; the sampled ids and the other arguments end as they were launched. -/
theorem run : θ_run defs (onTc (τ := τ) (main (F := Ideal))) ⟨m, fun _ => 0, ρ⟩ fun r => ∀ c : Dev nD,
      r.2.mem ((c : Thread nD τ).loc main_v0_0)
        = logits (m ((c : Thread nD τ).loc main_arg0))
            (Entry.sampledRows (F := Ideal) (m ((c : Thread nD τ).loc main_arg1)) (m ((c : Thread nD τ).loc main_arg3)))
            (Entry.sampledBias (F := Ideal) (m ((c : Thread nD τ).loc main_arg2)) (m ((c : Thread nD τ).loc main_arg3)))
      ∧ r.2.mem ((c : Thread nD τ).loc main_arg3) = m ((c : Thread nD τ).loc main_arg3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2.2.2.2, (h c).2.1, (h c).2.2.1, (h c).2.2.2.1, (h c).2.2.2.2⟩)
    (run_blocks m ρ)

end Cert.KernelIdeal.Blocks

end
-- ==== Proof.lean ====
/-
  The certificate's claims.

  Both programs compute, for every row `n` of the activations and every sampled class `s`,

      logit n s = (Σ_{d < 128} x[n, d] · weight[id s, d]) + bias[id s],

  where `id s` is the sampled id with a negative id counted from the end of the table.  The kernel program gathers the
  sampled rows and biases, rounds its matrix operands to a narrower float format (the identity on extended reals) and
  computes the logits tile by tile on a 16 × 4 grid, each tile a matrix product into a zero accumulator plus a
  repeated bias row; the reference gathers the same rows and biases, contracts once over the whole arrays and adds the
  bias row repeated over all rows.  The two gathers are the same function of the same arguments and are never opened.
  The only laws of the extended reals used are that zero is neutral for addition and that a finite sum may be
  re-indexed along a bijection, so the inputs' finiteness is not needed.

  The three frames are the generated ones (the reference's is its generated run with the result dropped); the
  idealization rewrote nothing, so nothing is owed for it; the value claim sets the kernel program's run
  (Proof/Blocks.lean) beside the reference's generated run read as the logit array (Proof/RefLogits.lean).
-/
import proofs.«125937_j69965017252067_2_alg».proof.Defs
import proofs.«125937_j69965017252067_2_alg».proof.Proof.Gen.Kernel
import proofs.«125937_j69965017252067_2_alg».proof.Proof.Gen.Kernel.Skeleton
import proofs.«125937_j69965017252067_2_alg».proof.Proof.Gen.Kernel.Launch
import proofs.«125937_j69965017252067_2_alg».proof.Proof.Gen.Kernel.Points
import proofs.«125937_j69965017252067_2_alg».proof.Proof.Gen.Kernel.Frame
import proofs.«125937_j69965017252067_2_alg».proof.Proof.Gen.KernelIdeal
import proofs.«125937_j69965017252067_2_alg».proof.Proof.Gen.KernelIdeal.Skeleton
import proofs.«125937_j69965017252067_2_alg».proof.Proof.Gen.KernelIdeal.Launch
import proofs.«125937_j69965017252067_2_alg».proof.Proof.Gen.KernelIdeal.Points
import proofs.«125937_j69965017252067_2_alg».proof.Proof.Gen.KernelIdeal.Frame
import proofs.«125937_j69965017252067_2_alg».proof.Proof.Gen.KernelIdeal.Value
import proofs.«125937_j69965017252067_2_alg».proof.Proof.Gen.ReferenceIdeal
import proofs.«125937_j69965017252067_2_alg».proof.Proof.Gen.ReferenceIdeal.Run
import proofs.«125937_j69965017252067_2_alg».proof.Proof.Gen.ReferenceIdeal.Read
import proofs.«125937_j69965017252067_2_alg».proof.Proof.Gen.Pre_finite_inputs
import proofs.«125937_j69965017252067_2_alg».proof.Proof.Spec
import proofs.«125937_j69965017252067_2_alg».proof.Proof.RefLogits
import proofs.«125937_j69965017252067_2_alg».proof.Proof.Blocks
import Idealize.ShloMosaic.Adequacy
import Idealize.ShloMosaic.Init

noncomputable section

namespace Cert.Proof

open Idealize.ShloMosaic Idealize.ShloMosaic.TcCoe Idealize.SL.Sem
open Cert.SampledLogits

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- The sampled embedding rows are one array in both programs: the same gather of the same table at the same
    wrapped ids. -/
theorem rows_eq (table : (⟨Cert.KernelIdeal.S500000x128, .f32⟩ : BufTy).Contents (Elt Ideal))
    (ids : (⟨Cert.KernelIdeal.S32768, .i32⟩ : BufTy).Contents (Elt Ideal)) :
    Cert.ReferenceIdeal.Read.val_main_v6 (F := Ideal) table ids = Cert.KernelIdeal.Entry.sampledRows (F := Ideal) table ids := rfl

/-- So are the sampled biases. -/
theorem bias_eq (table : (⟨Cert.KernelIdeal.S500000x1, .f32⟩ : BufTy).Contents (Elt Ideal))
    (ids : (⟨Cert.KernelIdeal.S32768, .i32⟩ : BufTy).Contents (Elt Ideal)) :
    Cert.ReferenceIdeal.Read.val_main_v14 (F := Ideal) table ids = Cert.KernelIdeal.Entry.sampledBias (F := Ideal) table ids := rfl

/-- From memories agreeing on the arguments both programs end with the logit array of the activations, the sampled
    rows and the sampled biases, and with the sampled ids as launched. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans (hagree c).2.2.2, (h c).2.2⟩)
    (Cert.ReferenceIdeal.Value.run (F := Ideal) m' ρ')
  rw [Cert.ReferenceIdeal.Read.val_main_v18_eq, Cert.ReferenceIdeal.RefLogits.result_eq,
    (hagree c).1, (hagree c).2.1, (hagree c).2.2.1, (hagree c).2.2.2, rows_eq, bias_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
